-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x12 : Shape := ⟨2, ![128, 12]⟩
abbrev S12 : Shape := ⟨1, ![12]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg9 : FVec F S128x12 .f32) (main_arg10 : FVec F S12 .f32) (main_v33 : IVec S_ 1) : IVec S_ 1 :=
  let main_v34 : FVec F S128x12 .f32 := Host.absf main_arg9
  let main_cst_12 : FVec F S_ .f32 := constant S_ .f32 0x7F800000#32
  let main_v35 : FVec F S128x12 .f32 := broadcastInDim S128x12 ![] bcast_S_S128x12 main_cst_12
  let main_v36 : IVec S128x12 1 := cmpf .olt main_v34 main_v35
  let main_c_13 : IVec S_ 1 := constantI S_ 1 1#1
  let main_v37 : IVec S_ 1 := (fun x v => Host.reduce IntOp.andi x v reducesTo_S128x12_S_d0_1 h_S_) main_v36 main_c_13
  let main_v38 : IVec S_ 1 := andi main_v33 main_v37
  let main_v39 : FVec F S12 .f32 := Host.absf main_arg10
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x12 .f32) (main_arg10 : FVec F S12 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x12 .f32) (main_arg10 : FVec F S12 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x12 : Shape := ⟨2, ![128, 12]⟩
abbrev S12 : Shape := ⟨1, ![12]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x12 : Shape := ⟨2, ![512, 12]⟩
abbrev S1x12 : Shape := ⟨2, ![1, 12]⟩

abbrev nBuf : Space → Nat
  | .hbm => 137
  | .vmem => 18
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x12, .f32⟩
  | 10 => ⟨S12, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x1, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x128, .f32⟩
  | 107 => ⟨S850000x1, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S512x128, .f32⟩
  | 119 => ⟨S50000x1, .i32⟩
  | 120 => ⟨S512x128, .f32⟩
  | 121 => ⟨S_, .f32⟩
  | 122 => ⟨S50000, .f32⟩
  | 123 => ⟨S_, .f32⟩
  | 124 => ⟨S512, .f32⟩
  | 125 => ⟨S50000x1, .i32⟩
  | 126 => ⟨S512, .f32⟩
  | 127 => ⟨S_, .f32⟩
  | _ => ⟨S50000x128, .f32⟩

abbrev hbmTy0_1 (i : Nat) : BufTy := match i % 128 with
  | 0 => ⟨S512, .f32⟩
  | 1 => ⟨S512, .f32⟩
  | 2 => ⟨S512x1, .f32⟩
  | 3 => ⟨S512x128, .f32⟩
  | 4 => ⟨S512x128, .f32⟩
  | 5 => ⟨S512x12, .f32⟩
  | 6 => ⟨S1x12, .f32⟩
  | 7 => ⟨S512x12, .f32⟩
  | 8 => ⟨S512x12, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S512x128, .f32⟩
  | .local _ .vmem, ⟨16, _⟩ => ⟨S128x12, .f32⟩
  | .local _ .vmem, ⟨17, _⟩ => ⟨S512x12, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x12 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512x12 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x12_S128x12_0_0 : ∀ a, (![0, 0] : Fin 2 → Nat) a + S128x12.size a ≤ S128x12.size a
  h_S128x12 : 0 < S128x12.numel
  inb_S512x12_S512x12_0_0 : ∀ a, (![0, 0] : Fin 2 → Nat) a + S512x12.size a ≤ S512x12.size a
  h_S512x12 : 0 < S512x12.numel
  bcast_S12_S1x12_1 : S12.BroadcastsInDim S1x12 (![1] : Fin 1 → Fin S1x12.rank)
  bcast_S1x12_S512x12_0_1 : S1x12.BroadcastsInDim S512x12 (![0, 1] : Fin 2 → Fin S512x12.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x12_S512x12_1_0_0_1_n_n_wf : DotDims.WF S512x128 S128x12 S512x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x12.size a ≤ S128x12.size a
  hwx3_1 : ∀ i : grid3.Coords, EltTy.bits .f32 = 32 ∨ (Rect.block (s := S128x12) S128x12.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S512x12.size a ≤ S512x12.size a
  hwx3_2 : ∀ i : grid3.Coords, EltTy.bits .f32 = 32 ∨ (Rect.block (s := S512x12) S512x12.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x12_S512x12_1_0_0_1_n_n : DotDims S512x128 S128x12 S512x12 where
  lhsContracting := [1]
  rhsContracting := [0]
  lhsNonContracting := [0]
  rhsNonContracting := [1]
  lhsBatch := []
  rhsBatch := []
  wf := dot_S512x128_S128x12_S512x12_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v94) S512x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x12.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v95) S512x12.size cc3_transform_2 reads3_2 true false 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x12 : Shape := ⟨2, ![128, 12]⟩
abbrev S12 : Shape := ⟨1, ![12]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x12 : Shape := ⟨2, ![512, 12]⟩
abbrev S1x12 : Shape := ⟨2, ![1, 12]⟩

abbrev nBuf : Space → Nat
  | .hbm => 209
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x12, .f32⟩
  | 10 => ⟨S12, .f32⟩
  | 11 => ⟨S1x800000, .i32⟩
  | 12 => ⟨S800000, .i32⟩
  | 13 => ⟨S1x800000, .i32⟩
  | 14 => ⟨S800000, .i32⟩
  | 15 => ⟨S50000x128, .f32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S50000, .i32⟩
  | 76 => ⟨S850000, .i32⟩
  | 77 => ⟨S850000, .i32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S50000, .i32⟩
  | 7 => ⟨S850000, .i32⟩
  | 8 => ⟨S850000, .i32⟩
  | 9 => ⟨S_, .f32⟩
  | 10 => ⟨S850000, .f32⟩
  | 11 => ⟨S_, .f32⟩
  | 12 => ⟨S50000, .f32⟩
  | 13 => ⟨S850000x1, .i32⟩
  | 14 => ⟨S50000, .f32⟩
  | 15 => ⟨S_, .f32⟩
  | 16 => ⟨S50000, .f32⟩
  | 17 => ⟨S50000, .i1⟩
  | 18 => ⟨S50000, .f32⟩
  | 19 => ⟨S_, .f32⟩
  | 20 => ⟨S_, .f32⟩
  | 21 => ⟨S50000, .f32⟩
  | 22 => ⟨S50000, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x128, .f32⟩
  | 51 => ⟨S850000x1, .f32⟩
  | 52 => ⟨S850000x128, .f32⟩
  | 53 => ⟨S850000x128, .f32⟩
  | 54 => ⟨S_, .f32⟩
  | 55 => ⟨S50000x128, .f32⟩
  | 56 => ⟨S850000x1, .i32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S512x128, .f32⟩
  | 63 => ⟨S50000x1, .i32⟩
  | 64 => ⟨S512x128, .f32⟩
  | 65 => ⟨S_, .f32⟩
  | 66 => ⟨S50000, .f32⟩
  | 67 => ⟨S_, .f32⟩
  | 68 => ⟨S512, .f32⟩
  | 69 => ⟨S50000x1, .i32⟩
  | 70 => ⟨S512, .f32⟩
  | 71 => ⟨S_, .f32⟩
  | 72 => ⟨S512, .f32⟩
  | 73 => ⟨S512, .f32⟩
  | 74 => ⟨S512x1, .f32⟩
  | 75 => ⟨S512x128, .f32⟩
  | 76 => ⟨S512x128, .f32⟩
  | 77 => ⟨S512x12, .f32⟩
  | 78 => ⟨S1x12, .f32⟩
  | 79 => ⟨S512x12, .f32⟩
  | 80 => ⟨S512x12, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_19 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_cst_21 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_22 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_call4_v0 : Ref sig .tc := ⟨.hbm, 148, rfl⟩
abbrev main_call4_v1 : Ref sig .tc := ⟨.hbm, 149, rfl⟩
abbrev main_v103 : Ref sig .tc := ⟨.hbm, 150, rfl⟩
abbrev main_c_24 : Ref sig .tc := ⟨.hbm, 151, rfl⟩
abbrev main_v104 : Ref sig .tc := ⟨.hbm, 152, rfl⟩
abbrev main_v105 : Ref sig .tc := ⟨.hbm, 153, rfl⟩
abbrev main_c_25 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_26 : Ref sig .tc := ⟨.hbm, 160, rfl⟩
abbrev main_v111 : Ref sig .tc := ⟨.hbm, 161, rfl⟩
abbrev main_v112 : Ref sig .tc := ⟨.hbm, 162, rfl⟩
abbrev main_c_27 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_28 : Ref sig .tc := ⟨.hbm, 170, rfl⟩
abbrev main_v119 : Ref sig .tc := ⟨.hbm, 171, rfl⟩
abbrev main_v120 : Ref sig .tc := ⟨.hbm, 172, rfl⟩
abbrev main_c_29 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_30 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_31 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_32 : Ref sig .tc := ⟨.hbm, 193, rfl⟩
abbrev main_v138 : Ref sig .tc := ⟨.hbm, 194, rfl⟩
abbrev main_cst_33 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_34 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S12_S1x12_1 : S12.BroadcastsInDim S1x12 (![1] : Fin 1 → Fin S1x12.rank)
  bcast_S1x12_S512x12_0_1 : S1x12.BroadcastsInDim S512x12 (![0, 1] : Fin 2 → Fin S512x12.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x12_S512x12_1_0_0_1_n_n_wf : DotDims.WF S512x128 S128x12 S512x12 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x12_S512x12_1_0_0_1_n_n : DotDims S512x128 S128x12 S512x12 where
  lhsContracting := [1]
  rhsContracting := [0]
  lhsNonContracting := [0]
  rhsNonContracting := [1]
  lhsBatch := []
  rhsBatch := []
  wf := dot_S512x128_S128x12_S512x12_1_0_0_1_n_n_wf

class Facts : Prop extends Facts₀ where

variable [Facts]
-- ==== Proof.RunAll.lean ====
/-
  The idealized kernel's run, read at EVERY buffer. @main is thirteen segments: stretches of host operations and four
  matrix-product regions. The contents of the TensorCore's buffers at each segment boundary are a fold from the launch
  memory (a stretch applies its operations in order; a region leaves its output array at what its grid points wrote
  back and every other buffer as it found it). Every weakly fair execution terminates, and in every final state each
  unscoped buffer holds the fold's last contents.
-/
import proofs.«131855_j87136296501830_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates without a fault, and every final state has each unscoped buffer of
    every core at the last contents of the fold through @main's segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- A buffer that is not scoped is among the unscoped ones. -/
theorem mem_unscoped (b : Ref sig .tc) (h : ¬ (Proc.devRef .tc b : DevRef τ sig).isScoped) :
    Proc.devRef .tc b ∈ Pipeline.ucRefs τ sig := mem_uc b h

end Cert.KernelIdeal.Whole

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibMatProduct.lean ====
/-
  The matrix product at exact arithmetic, as ONE function of two matrices (`Cert.Dense.mm`): entry (p, q) of an m×K
  matrix times a K×n matrix is the sum over k of left (p, k) · right (k, q). The host's dot_general whose dimension
  numbers contract the left factor's columns against the right factor's rows IS this function (an equation between
  functions, so it rewrites under any later stage), and a TensorCore product with the same dimension numbers into a
  zero accumulator has this function's entries. General: no program is named; the hypotheses on the dimension record
  are its six lists, each closed by `rfl` at a printed record.
-/
import Idealize.ShloMosaic.Lib.ValueIdx
import Idealize.ShloMosaic.PureOps.Ideal.Laws
import proofs.«131855_j87136296501830_1_alg».proof.Proof.LibDotEntry
import proofs.«131855_j87136296501830_1_alg».proof.Proof.LibMatDims

noncomputable section

namespace Cert.Dense

open Idealize.ShloMosaic Idealize.ShloMosaic.TcCoe Idealize.SL.Sem Idealize.ShloMosaic.ValueIdx

/-- The product of an m×K matrix by a K×n matrix on the extended reals. -/
def mm {m K n : Nat} (x : FVec Ideal ⟨2, ![m, K]⟩ .f32) (w : FVec Ideal ⟨2, ![K, n]⟩ .f32) : FVec Ideal ⟨2, ![m, n]⟩ .f32 :=
  fun i => ∑ k : Fin K, x (ix2 (i 0) k) * w (ix2 k (i 1))

theorem mm_apply {m K n : Nat} (x : FVec Ideal ⟨2, ![m, K]⟩ .f32) (w : FVec Ideal ⟨2, ![K, n]⟩ .f32) (p : Fin m) (q : Fin n) :
    mm x w (ix2 p q) = ∑ k : Fin K, x (ix2 p k) * w (ix2 k q) := rfl

/-- The host's product with plain matrix dimension numbers (no batch axis, the left factor's axis 1 contracted against
    the right factor's axis 0) is the matrix product. -/
theorem dotGeneral_eq_mm {m K n : Nat} (D : DotDims ⟨2, ![m, K]⟩ ⟨2, ![K, n]⟩ ⟨2, ![m, n]⟩)
    (hlb : D.lhsBatch = []) (hrb : D.rhsBatch = []) (hlc : D.lhsContracting = [1]) (hrc : D.rhsContracting = [0])
    (hln : D.lhsNonContracting = [0]) (hrn : D.rhsNonContracting = [1])
    (x : FVec Ideal ⟨2, ![m, K]⟩ .f32) (w : FVec Ideal ⟨2, ![K, n]⟩ .f32) :
    Host.dotGeneral (F := Ideal) D none x w = mm x w := by
  funext i
  obtain ⟨p, q, rfl⟩ : ∃ (p : Fin m) (q : Fin n), i = ix2 p q := ⟨i 0, i 1, eq_ix2 i⟩
  exact Cert.Lib.DotEntry.dotGeneral_ix2 D (Cert.Lib.MatDims.contr_rank D hlc) (Cert.Lib.MatDims.contr_size D hlc)
    (Cert.Lib.MatDims.lhs_row D hlb hln) (Cert.Lib.MatDims.lhs_col D hlc) (Cert.Lib.MatDims.rhs_row D hlc hrc)
    (Cert.Lib.MatDims.rhs_col D hlb hrb hln hrn) x w p q

/-- A TensorCore product with the same dimension numbers into a zero accumulator, read at an entry, is the matrix
    product's entry. The two factors may carry any float format: at exact arithmetic a format is a label. -/
theorem matmul_zero_apply {m K n : Nat} {φ₁ φ₂ : FTy} (D : DotDims ⟨2, ![m, K]⟩ ⟨2, ![K, n]⟩ ⟨2, ![m, n]⟩)
    (hlb : D.lhsBatch = []) (hrb : D.rhsBatch = []) (hlc : D.lhsContracting = [1]) (hrc : D.rhsContracting = [0])
    (hln : D.lhsNonContracting = [0]) (hrn : D.rhsNonContracting = [1])
    (x : FVec Ideal ⟨2, ![m, K]⟩ φ₁) (w : FVec Ideal ⟨2, ![K, n]⟩ φ₂) (p : Fin m) (q : Fin n) :
    matmul D none x w (constant (F := Ideal) ⟨2, ![m, n]⟩ .f32 0x00000000#32) (ix2 p q)
      = ∑ k : Fin K, x (ix2 p k) * w (ix2 k q) :=
  Cert.Lib.DotEntry.matmul_zero_ix2 D (Cert.Lib.MatDims.contr_rank D hlc) (Cert.Lib.MatDims.contr_size D hlc)
    (Cert.Lib.MatDims.lhs_row D hlb hln) (Cert.Lib.MatDims.lhs_col D hlc) (Cert.Lib.MatDims.rhs_row D hlc hrc)
    (Cert.Lib.MatDims.rhs_col D hlb hrb hln hrn) x w p q

end Cert.Dense

end
-- ==== Proof.Region0.lean ====
/-
  Region 0 of the idealized kernel: a matrix product computed block of rows by block of rows. Grid point t loads rows
  5000·t … 5000·t + 4999 of the left matrix and the whole right matrix, multiplies them on the matrix unit into a zero
  accumulator (at exact arithmetic the two roundings to bf16 on the way in are the identity), and writes the product
  back as the same rows of the output. The 10 blocks of rows tile the output, so after the region the output array is
  the whole product of the two arrays as the region found them.
-/
import proofs.«131855_j87136296501830_1_alg».proof.Proof.Gen.KernelIdeal.Frame
import proofs.«131855_j87136296501830_1_alg».proof.Proof.LibMatProduct
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value at entry (p, q) of its block: row p of the loaded rows times column q of the right matrix. -/
theorem pay_apply (x0 : Vec Ideal S5000x128 .f32) (x1 : Vec Ideal S128x128 .f32) (p : Fin 5000) (q : Fin 128) :
    k0_pay1 x0 x1 (ix2 p q) = ∑ j : Fin 128, x0 (ix2 p j) * x1 (ix2 j q) := by
  unfold k0_pay1
  exact Cert.Dense.matmul_zero_apply dot_S5000x128_S128x128_S5000x128_1_0_0_1_n_n rfl rfl rfl rfl rfl rfl _ _ p q

/-- Where the three windows' blocks sit at each grid point: the left matrix's and the output's blocks are the same
    block of rows, numbered by the point; the right matrix's block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the two arrays as the region finds them. -/
theorem flushed_eq (c : Dev nD) (t : Fin cfg0.N) :
    (dat0 V c).flushed 2 t
      = ((cfg0.win 2).blk t).view.read (Elt Ideal) (Cert.Dense.mm (m := 50000) (K := 128) (n := 128) (V c main_arg0) (V c main_arg3)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e00, e01, e10, e11, e20, e21⟩ := idx_facts t
  funext y
  obtain ⟨p, q, rfl⟩ : ∃ (p : Fin 5000) (q : Fin 128), y = ix2 p q := ⟨y 0, y 1, eq_ix2 y⟩
  show k0_pay1 (iblk0 V c 0 t) (iblk0 V c 1 t) (ix2 p q)
    = Cert.Dense.mm (m := 50000) (K := 128) (n := 128) (V c main_arg0) (V c main_arg3) (((cfg0.win 2).blk t).view.emb (ix2 p q))
  refine (pay_apply (iblk0 V c 0 t) (iblk0 V c 1 t) p q).trans ?_
  refine Finset.sum_congr rfl fun j _ => ?_
  have hp : p.val < 5000 := p.isLt
  have hq : q.val < 128 := q.isLt
  have hj : j.val < 128 := j.isLt
  have h0 : ((cfg0.win 0).blk t).view.emb (ix2 p j) = ix2 ((((cfg0.win 2).blk t).view.emb (ix2 p q)) 0) j := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * j.val = j.val; omega
  have h1 : ((cfg0.win 1).blk t).view.emb (ix2 j q) = ix2 j ((((cfg0.win 2).blk t).view.emb (ix2 p q)) 1) := by
    funext a; apply Fin.ext
    match a with
    | ⟨0, _⟩ => show win0_1.index t (0 : Fin 2) * 128 + 1 * j.val = j.val; omega
    | ⟨1, _⟩ => show win0_1.index t (1 : Fin 2) * 128 + 1 * q.val = win0_2.index t (1 : Fin 2) * 128 + 1 * q.val; omega
  have hx : iblk0 V c 0 t (ix2 p j) = V c main_arg0 (ix2 ((((cfg0.win 2).blk t).view.emb (ix2 p q)) 0) j) :=
    congrArg (V c main_arg0) h0
  have hw : iblk0 V c 1 t (ix2 j q) = V c main_arg3 (ix2 j ((((cfg0.win 2).blk t).view.emb (ix2 p q)) 1)) :=
    congrArg (V c main_arg3) h1
  rw [hx, hw]

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every entry of the output lies in the block of rows of the point numbered by its row divided by 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by show (i 0).val / 5000 < grid0.N; rw [N_0]; omega⟩
  obtain ⟨e00, e01, e10, e11, e20, e21⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array is the matrix product of the two input arrays as the region found them. -/
theorem product (c : Dev nD) :
    (dat0 V c).arrAt 2 cfg0.N = Cert.Dense.mm (m := 50000) (K := 128) (n := 128) (V c main_arg0) (V c main_arg3) :=
  (dat0 V c).arrAt_eq_of_cover 2 _ (fun t _ => flushed_eq V c t) (cover)

end Cert.KernelIdeal.Region0

end
-- ==== Proof.Region1.lean ====
/-
  Region 1 of the idealized kernel: a matrix product computed block of rows by block of rows. Grid point t loads rows
  5000·t … 5000·t + 4999 of the left matrix and the whole right matrix, multiplies them on the matrix unit into a zero
  accumulator (at exact arithmetic the two roundings to bf16 on the way in, and a reshape to the same shape, are the identity), and writes the product
  back as the same rows of the output. The 10 blocks of rows tile the output, so after the region the output array is
  the whole product of the two arrays as the region found them.
-/
import proofs.«131855_j87136296501830_1_alg».proof.Proof.Gen.KernelIdeal.Frame
import proofs.«131855_j87136296501830_1_alg».proof.Proof.LibMatProduct
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value at entry (p, q) of its block: row p of the loaded rows times column q of the right matrix. -/
theorem pay_apply (x0 : Vec Ideal S5000x128 .f32) (x1 : Vec Ideal S128x128 .f32) (p : Fin 5000) (q : Fin 128) :
    k1_pay1 x0 x1 (ix2 p q) = ∑ j : Fin 128, x0 (ix2 p j) * x1 (ix2 j q) := by
  unfold k1_pay1
  refine (Cert.Dense.matmul_zero_apply dot_S5000x128_S128x128_S5000x128_1_0_0_1_n_n rfl rfl rfl rfl rfl rfl
    (truncf .bf16 (shapeCast S5000x128 x0 shapeCasts_S5000x128_S5000x128) bitsLt_bf16_f32) (truncf .bf16 x1 bitsLt_bf16_f32) p q).trans ?_
  rw [shapeCast_self]
  rfl

/-- Where the three windows' blocks sit at each grid point: the left matrix's and the output's blocks are the same
    block of rows, numbered by the point; the right matrix's block is the whole matrix. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the product of the two arrays as the region finds them. -/
theorem flushed_eq (c : Dev nD) (t : Fin cfg1.N) :
    (dat1 V c).flushed 2 t
      = ((cfg1.win 2).blk t).view.read (Elt Ideal) (Cert.Dense.mm (m := 50000) (K := 128) (n := 128) (V c main_v47) (V c main_arg5)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x128) origin]
  obtain ⟨e00, e01, e10, e11, e20, e21⟩ := idx_facts t
  funext y
  obtain ⟨p, q, rfl⟩ : ∃ (p : Fin 5000) (q : Fin 128), y = ix2 p q := ⟨y 0, y 1, eq_ix2 y⟩
  show k1_pay1 (iblk1 V c 0 t) (iblk1 V c 1 t) (ix2 p q)
    = Cert.Dense.mm (m := 50000) (K := 128) (n := 128) (V c main_v47) (V c main_arg5) (((cfg1.win 2).blk t).view.emb (ix2 p q))
  refine (pay_apply (iblk1 V c 0 t) (iblk1 V c 1 t) p q).trans ?_
  refine Finset.sum_congr rfl fun j _ => ?_
  have hp : p.val < 5000 := p.isLt
  have hq : q.val < 128 := q.isLt
  have hj : j.val < 128 := j.isLt
  have h0 : ((cfg1.win 0).blk t).view.emb (ix2 p j) = ix2 ((((cfg1.win 2).blk t).view.emb (ix2 p q)) 0) j := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * j.val = j.val; omega
  have h1 : ((cfg1.win 1).blk t).view.emb (ix2 j q) = ix2 j ((((cfg1.win 2).blk t).view.emb (ix2 p q)) 1) := by
    funext a; apply Fin.ext
    match a with
    | ⟨0, _⟩ => show win1_1.index t (0 : Fin 2) * 128 + 1 * j.val = j.val; omega
    | ⟨1, _⟩ => show win1_1.index t (1 : Fin 2) * 128 + 1 * q.val = win1_2.index t (1 : Fin 2) * 128 + 1 * q.val; omega
  have hx : iblk1 V c 0 t (ix2 p j) = V c main_v47 (ix2 ((((cfg1.win 2).blk t).view.emb (ix2 p q)) 0) j) :=
    congrArg (V c main_v47) h0
  have hw : iblk1 V c 1 t (ix2 j q) = V c main_arg5 (ix2 j ((((cfg1.win 2).blk t).view.emb (ix2 p q)) 1)) :=
    congrArg (V c main_arg5) h1
  rw [hx, hw]

/-- An index of the output array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Every entry of the output lies in the block of rows of the point numbered by its row divided by 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 5000, by show (i 0).val / 5000 < grid1.N; rw [N_1]; omega⟩
  obtain ⟨e00, e01, e10, e11, e20, e21⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the output array is the matrix product of the two input arrays as the region found them. -/
theorem product (c : Dev nD) :
    (dat1 V c).arrAt 2 cfg1.N = Cert.Dense.mm (m := 50000) (K := 128) (n := 128) (V c main_v47) (V c main_arg5) :=
  (dat1 V c).arrAt_eq_of_cover 2 _ (fun t _ => flushed_eq V c t) (cover)

end Cert.KernelIdeal.Region1

end
-- ==== Proof.Region2.lean ====
/-
  Region 2 of the idealized kernel: a matrix product computed block of rows by block of rows. Grid point t loads rows
  5000·t … 5000·t + 4999 of the left matrix and the whole right matrix, multiplies them on the matrix unit into a zero
  accumulator (at exact arithmetic the two roundings to bf16 on the way in, and a reshape to the same shape, are the identity), and writes the product
  back as the same rows of the output. The 10 blocks of rows tile the output, so after the region the output array is
  the whole product of the two arrays as the region found them.
-/
import proofs.«131855_j87136296501830_1_alg».proof.Proof.Gen.KernelIdeal.Frame
import proofs.«131855_j87136296501830_1_alg».proof.Proof.LibMatProduct
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value at entry (p, q) of its block: row p of the loaded rows times column q of the right matrix. -/
theorem pay_apply (x0 : Vec Ideal S5000x128 .f32) (x1 : Vec Ideal S128x128 .f32) (p : Fin 5000) (q : Fin 128) :
    k2_pay1 x0 x1 (ix2 p q) = ∑ j : Fin 128, x0 (ix2 p j) * x1 (ix2 j q) := by
  unfold k2_pay1
  refine (Cert.Dense.matmul_zero_apply dot_S5000x128_S128x128_S5000x128_1_0_0_1_n_n rfl rfl rfl rfl rfl rfl
    (truncf .bf16 (shapeCast S5000x128 x0 shapeCasts_S5000x128_S5000x128) bitsLt_bf16_f32) (truncf .bf16 x1 bitsLt_bf16_f32) p q).trans ?_
  rw [shapeCast_self]
  rfl

/-- Where the three windows' blocks sit at each grid point: the left matrix's and the output's blocks are the same
    block of rows, numbered by the point; the right matrix's block is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the product of the two arrays as the region finds them. -/
theorem flushed_eq (c : Dev nD) (t : Fin cfg2.N) :
    (dat2 V c).flushed 2 t
      = ((cfg2.win 2).blk t).view.read (Elt Ideal) (Cert.Dense.mm (m := 50000) (K := 128) (n := 128) (V c main_v65) (V c main_arg7)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e00, e01, e10, e11, e20, e21⟩ := idx_facts t
  funext y
  obtain ⟨p, q, rfl⟩ : ∃ (p : Fin 5000) (q : Fin 128), y = ix2 p q := ⟨y 0, y 1, eq_ix2 y⟩
  show k2_pay1 (iblk2 V c 0 t) (iblk2 V c 1 t) (ix2 p q)
    = Cert.Dense.mm (m := 50000) (K := 128) (n := 128) (V c main_v65) (V c main_arg7) (((cfg2.win 2).blk t).view.emb (ix2 p q))
  refine (pay_apply (iblk2 V c 0 t) (iblk2 V c 1 t) p q).trans ?_
  refine Finset.sum_congr rfl fun j _ => ?_
  have hp : p.val < 5000 := p.isLt
  have hq : q.val < 128 := q.isLt
  have hj : j.val < 128 := j.isLt
  have h0 : ((cfg2.win 0).blk t).view.emb (ix2 p j) = ix2 ((((cfg2.win 2).blk t).view.emb (ix2 p q)) 0) j := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * j.val = j.val; omega
  have h1 : ((cfg2.win 1).blk t).view.emb (ix2 j q) = ix2 j ((((cfg2.win 2).blk t).view.emb (ix2 p q)) 1) := by
    funext a; apply Fin.ext
    match a with
    | ⟨0, _⟩ => show win2_1.index t (0 : Fin 2) * 128 + 1 * j.val = j.val; omega
    | ⟨1, _⟩ => show win2_1.index t (1 : Fin 2) * 128 + 1 * q.val = win2_2.index t (1 : Fin 2) * 128 + 1 * q.val; omega
  have hx : iblk2 V c 0 t (ix2 p j) = V c main_v65 (ix2 ((((cfg2.win 2).blk t).view.emb (ix2 p q)) 0) j) :=
    congrArg (V c main_v65) h0
  have hw : iblk2 V c 1 t (ix2 j q) = V c main_arg7 (ix2 j ((((cfg2.win 2).blk t).view.emb (ix2 p q)) 1)) :=
    congrArg (V c main_arg7) h1
  rw [hx, hw]

/-- An index of the output array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v66).slice (win2_2.rect t)).set ↔ _
  rw [View.set_slice_whole, Rect.mem_set_unit]
  exact Iff.rfl

/-- Every entry of the output lies in the block of rows of the point numbered by its row divided by 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 5000, by show (i 0).val / 5000 < grid2.N; rw [N_2]; omega⟩
  obtain ⟨e00, e01, e10, e11, e20, e21⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the output array is the matrix product of the two input arrays as the region found them. -/
theorem product (c : Dev nD) :
    (dat2 V c).arrAt 2 cfg2.N = Cert.Dense.mm (m := 50000) (K := 128) (n := 128) (V c main_v65) (V c main_arg7) :=
  (dat2 V c).arrAt_eq_of_cover 2 _ (fun t _ => flushed_eq V c t) (cover)

end Cert.KernelIdeal.Region2

end
-- ==== Proof.Region3.lean ====
/-
  Region 3 of the idealized kernel: the last matrix product, 512×128 by 128×12, computed at a single grid point. The
  point loads the whole left matrix and the whole right matrix, multiplies them on the matrix unit into a zero
  accumulator (at exact arithmetic the two roundings to bf16 on the way in, and a reshape to the same shape, are the
  identity), and writes the product back as the whole output. So after the region the output array is the product of
  the two arrays as the region found them.
-/
import proofs.«131855_j87136296501830_1_alg».proof.Proof.Gen.KernelIdeal.Frame
import proofs.«131855_j87136296501830_1_alg».proof.Proof.LibMatProduct
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value at entry (p, q) of its block: row p of the loaded rows times column q of the right matrix. -/
theorem pay_apply (x0 : Vec Ideal S512x128 .f32) (x1 : Vec Ideal S128x12 .f32) (p : Fin 512) (q : Fin 12) :
    k3_pay1 x0 x1 (ix2 p q) = ∑ j : Fin 128, x0 (ix2 p j) * x1 (ix2 j q) := by
  unfold k3_pay1
  refine (Cert.Dense.matmul_zero_apply dot_S512x128_S128x12_S512x12_1_0_0_1_n_n rfl rfl rfl rfl rfl rfl
    (truncf .bf16 (shapeCast S512x128 x0 shapeCasts_S512x128_S512x128) bitsLt_bf16_f32) (truncf .bf16 x1 bitsLt_bf16_f32) p q).trans ?_
  rw [shapeCast_self]
  rfl

/-- Where the three windows' blocks sit at each grid point: the left matrix's and the output's blocks are the same
    block of rows, numbered by the point; the right matrix's block is the whole matrix. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the product of the two arrays as the region finds them. -/
theorem flushed_eq (c : Dev nD) (t : Fin cfg3.N) :
    (dat3 V c).flushed 2 t
      = ((cfg3.win 2).blk t).view.read (Elt Ideal) (Cert.Dense.mm (m := 512) (K := 128) (n := 12) (V c main_v94) (V c main_arg9)) := by
  show (cfg3.win 2).cut (grid3.coords t) ((dat3 V c).after 2 t) = _
  rw [after3_2]
  unfold out3_2
  rw [View.canon_unit_zero origin]
  simp only [View.ld_unit_zero (S := S512x128) origin, View.ld_unit_zero (S := S128x12) origin]
  obtain ⟨e00, e01, e10, e11, e20, e21⟩ := idx_facts t
  funext y
  obtain ⟨p, q, rfl⟩ : ∃ (p : Fin 512) (q : Fin 12), y = ix2 p q := ⟨y 0, y 1, eq_ix2 y⟩
  show k3_pay1 (iblk3 V c 0 t) (iblk3 V c 1 t) (ix2 p q)
    = Cert.Dense.mm (m := 512) (K := 128) (n := 12) (V c main_v94) (V c main_arg9) (((cfg3.win 2).blk t).view.emb (ix2 p q))
  refine (pay_apply (iblk3 V c 0 t) (iblk3 V c 1 t) p q).trans ?_
  refine Finset.sum_congr rfl fun j _ => ?_
  have hp : p.val < 512 := p.isLt
  have hq : q.val < 12 := q.isLt
  have hj : j.val < 128 := j.isLt
  have h0 : ((cfg3.win 0).blk t).view.emb (ix2 p j) = ix2 ((((cfg3.win 2).blk t).view.emb (ix2 p q)) 0) j := by
    funext a; apply Fin.ext
    match a with
    | ⟨0, _⟩ => show win3_0.index t (0 : Fin 2) * 512 + 1 * p.val = win3_2.index t (0 : Fin 2) * 512 + 1 * p.val; omega
    | ⟨1, _⟩ => show win3_0.index t (1 : Fin 2) * 128 + 1 * j.val = j.val; omega
  have h1 : ((cfg3.win 1).blk t).view.emb (ix2 j q) = ix2 j ((((cfg3.win 2).blk t).view.emb (ix2 p q)) 1) := by
    funext a; apply Fin.ext
    match a with
    | ⟨0, _⟩ => show win3_1.index t (0 : Fin 2) * 128 + 1 * j.val = j.val; omega
    | ⟨1, _⟩ => show win3_1.index t (1 : Fin 2) * 12 + 1 * q.val = win3_2.index t (1 : Fin 2) * 12 + 1 * q.val; omega
  have hx : iblk3 V c 0 t (ix2 p j) = V c main_v94 (ix2 ((((cfg3.win 2).blk t).view.emb (ix2 p q)) 0) j) :=
    congrArg (V c main_v94) h0
  have hw : iblk3 V c 1 t (ix2 j q) = V c main_arg9 (ix2 j ((((cfg3.win 2).blk t).view.emb (ix2 p q)) 1)) :=
    congrArg (V c main_arg9) h1
  rw [hx, hw]

/-- An index of the output array is in point t's block iff each coordinate is in the block's range on its axis. -/
theorem mem_blk (t : Fin cfg3.N) (i : S512x12.Idx) :
    i ∈ ((cfg3.win 2).blk t).view.set ↔ ∀ a : Fin 2, win3_2.index t a * S512x12.size a ≤ (i a).val ∧ (i a).val < win3_2.index t a * S512x12.size a + S512x12.size a := by
  show i ∈ ((View.whole main_v95).slice (win3_2.rect t)).set ↔ _
  rw [View.set_slice_whole, Rect.mem_set_unit]
  exact Iff.rfl

/-- Every entry of the output lies in the block of rows of the point numbered by its row divided by 512. -/
theorem cover (i : S512x12.Idx) : ∃ t : Fin cfg3.N, (cfg3.win 2).flush t = true ∧ i ∈ ((cfg3.win 2).blk t).view.set := by
  have hi0 : (i 0).val < 512 := (i 0).isLt
  have hi1 : (i 1).val < 12 := (i 1).isLt
  let t : Fin cfg3.N := ⟨(i 0).val / 512, by show (i 0).val / 512 < grid3.N; rw [N_3]; omega⟩
  obtain ⟨e00, e01, e10, e11, e20, e21⟩ := idx_facts t
  have ht : t.val = (i 0).val / 512 := rfl
  refine ⟨t, flush3_2 t, ?_⟩
  rw [mem_blk]
  intro a
  match a with
  | ⟨0, _⟩ => show win3_2.index t (0 : Fin 2) * 512 ≤ (i 0).val ∧ (i 0).val < win3_2.index t (0 : Fin 2) * 512 + 512; omega
  | ⟨1, _⟩ => show win3_2.index t (1 : Fin 2) * 12 ≤ (i 1).val ∧ (i 1).val < win3_2.index t (1 : Fin 2) * 12 + 12; omega

/-- After the region the output array is the matrix product of the two input arrays as the region found them. -/
theorem product (c : Dev nD) :
    (dat3 V c).arrAt 2 cfg3.N = Cert.Dense.mm (m := 512) (K := 128) (n := 12) (V c main_v94) (V c main_arg9) :=
  (dat3 V c).arrAt_eq_of_cover 2 _ (fun t _ => flushed_eq V c t) (cover)

end Cert.KernelIdeal.Region3

end
-- ==== Proof.Stages.lean ====
/-
  The network's host stages as functions of arrays, at any float arithmetic. A graph of 50000 nodes and 800000 directed
  edges; every node also sends a message to itself, so there are 850000 messages. A propagation step takes node
  features h (50000×128), gathers row h[s(e)] for each message e, scales it by the message's weight
  dinv[s(e)]·dinv[d(e)] (dinv the inverse square root of the in-degree, zero where the degree is not positive), adds
  the scaled rows up at the targets d(e), and adds a bias row. The head averages node features over each of 512
  graphs (sum over the nodes of a graph divided by max(count, 1)) and adds a bias to a last matrix product.
  Indices below zero are wrapped by the node count before a gather, as jax's indexing does.
-/
import proofs.«131855_j87136296501830_1_alg».proof.KernelIdeal

noncomputable section

namespace Cert.KernelIdeal.Stage

open Cert.KernelIdeal Idealize.ShloMosaic Idealize.ShloMosaic.TcCoe Idealize.SL.Sem

variable {F : FTy → Type} [FloatOps F] [Facts₀]
open Facts₀

/-- Message sources: row 0 of the edge list, then every node once. -/
def srcOf (ei : (⟨S2x800000, .i32⟩ : BufTy).Contents (Elt F)) : (⟨S850000, .i32⟩ : BufTy).Contents (Elt F) :=
  concatenate S850000 0 [⟨S800000, shapeCast S800000 (extractStridedSlice S1x800000 ![0, 0] ei slices_S2x800000_S1x800000_0_0) shapeCasts_S1x800000_S800000⟩,
    ⟨S50000, iotaInDim S50000 32 0⟩] concatenates_S800000_S50000_S850000_d0

/-- Message targets: row 1 of the edge list, then every node once. -/
def dstOf (ei : (⟨S2x800000, .i32⟩ : BufTy).Contents (Elt F)) : (⟨S850000, .i32⟩ : BufTy).Contents (Elt F) :=
  concatenate S850000 0 [⟨S800000, shapeCast S800000 (extractStridedSlice S1x800000 ![1, 0] ei slices_S2x800000_S1x800000_1_0) shapeCasts_S1x800000_S800000⟩,
    ⟨S50000, iotaInDim S50000 32 0⟩] concatenates_S800000_S50000_S850000_d0

/-- A column of gather indices: an index below zero is moved up by the node count. -/
def wrapIdx (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The in-degree of every node, its own message counted: ones added up at the targets. -/
def degOf (d : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- The inverse square root of a positive degree, zero otherwise. -/
def dinvOf (deg : (⟨S50000, .f32⟩ : BufTy).Contents (Elt F)) : (⟨S50000, .f32⟩ : BufTy).Contents (Elt F) :=
  select (cmpf (F := F) .ogt deg (broadcastInDim S50000 ![] bcast_S_S50000 (constant S_ .f32 0x00000000#32)))
    (Host.rsqrt deg) (broadcastInDim S50000 ![] bcast_S_S50000 (constant S_ .f32 0x00000000#32))

/-- The weight of each message: dinv at its source times dinv at its target. -/
def normOf (ei : (⟨S2x800000, .i32⟩ : BufTy).Contents (Elt F)) : (⟨S850000, .f32⟩ : BufTy).Contents (Elt F) :=
  mulf (Host.gather gather_S50000_S850000x1_S850000_n_0_n_n_0_1_1 (dinvOf (degOf (dstOf ei))) (wrapIdx (srcOf ei)))
    (Host.gather gather_S50000_S850000x1_S850000_n_0_n_n_0_1_1 (dinvOf (degOf (dstOf ei))) (wrapIdx (dstOf ei)))

/-- One propagation step. -/
def propagate (h : (⟨S50000x128, .f32⟩ : BufTy).Contents (Elt F)) (ei : (⟨S2x800000, .i32⟩ : BufTy).Contents (Elt F))
    (b : (⟨S128, .f32⟩ : BufTy).Contents (Elt F)) : (⟨S50000x128, .f32⟩ : BufTy).Contents (Elt F) :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 (dstOf ei))
      (mulf (Host.gather gather_S50000x128_S850000x1_S850000x128_1_0_n_n_0_1_1128 h (wrapIdx (srcOf ei)))
        (broadcastInDim S850000x128 ![0, 1] bcast_S850000x1_S850000x128_0_1
          (broadcastInDim S850000x1 ![0] bcast_S850000_S850000x1_0 (normOf ei)))))
    (broadcastInDim S50000x128 ![0, 1] bcast_S1x128_S50000x128_0_1 (broadcastInDim S1x128 ![1] bcast_S128_S1x128_1 b))

/-- The rectifier: the maximum with zero. -/
def relu (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- The mean of the node features over each graph: the sum over a graph's nodes divided by max(node count, 1). -/
def pool (h : (⟨S50000x128, .f32⟩ : BufTy).Contents (Elt F)) (batch : (⟨S50000, .i32⟩ : BufTy).Contents (Elt F)) :
    (⟨S512x128, .f32⟩ : BufTy).Contents (Elt F) :=
  Host.divf
    (Host.scatterAdd scatter_S512x128_S50000x1_S50000x128_1_0_0_1
      (broadcastInDim S512x128 ![] bcast_S_S512x128 (constant S_ .f32 0x00000000#32))
      (broadcastInDim S50000x1 ![0] bcast_S50000_S50000x1_0 batch) h)
    (broadcastInDim S512x128 ![0, 1] bcast_S512x1_S512x128_0_1
      (broadcastInDim S512x1 ![0] bcast_S512_S512x1_0
        (maximumf
          (Host.scatterAdd scatter_S512_S50000x1_S50000_n_0_0_1
            (broadcastInDim S512 ![] bcast_S_S512 (constant S_ .f32 0x00000000#32))
            (broadcastInDim S50000x1 ![0] bcast_S50000_S50000x1_0 batch)
            (broadcastInDim S50000 ![] bcast_S_S50000 (constant S_ .f32 0x3F800000#32)))
          (broadcastInDim S512 ![] bcast_S_S512 (constant S_ .f32 0x3F800000#32)))))

/-- The last bias: a row added to every row. -/
def addBias (y : (⟨S512x12, .f32⟩ : BufTy).Contents (Elt F)) (bc : (⟨S12, .f32⟩ : BufTy).Contents (Elt F)) :
    (⟨S512x12, .f32⟩ : BufTy).Contents (Elt F) :=
  addf y (broadcastInDim S512x12 ![0, 1] bcast_S1x12_S512x12_0_1 (broadcastInDim S1x12 ![1] bcast_S12_S1x12_1 bc))

/-- The whole network over two matrix products given as functions: `pa` for the three 50000×128 by 128×128 products,
    `pb` for the last 512×128 by 128×12 product. -/
def model
    (pa : (⟨S50000x128, .f32⟩ : BufTy).Contents (Elt F) → (⟨S128x128, .f32⟩ : BufTy).Contents (Elt F) → (⟨S50000x128, .f32⟩ : BufTy).Contents (Elt F))
    (pb : (⟨S512x128, .f32⟩ : BufTy).Contents (Elt F) → (⟨S128x12, .f32⟩ : BufTy).Contents (Elt F) → (⟨S512x12, .f32⟩ : BufTy).Contents (Elt F))
    (x : (⟨S50000x128, .f32⟩ : BufTy).Contents (Elt F)) (ei : (⟨S2x800000, .i32⟩ : BufTy).Contents (Elt F))
    (batch : (⟨S50000, .i32⟩ : BufTy).Contents (Elt F))
    (W0 : (⟨S128x128, .f32⟩ : BufTy).Contents (Elt F)) (b0 : (⟨S128, .f32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (Wc : (⟨S128x12, .f32⟩ : BufTy).Contents (Elt F)) (bc : (⟨S12, .f32⟩ : BufTy).Contents (Elt F)) :
    (⟨S512x12, .f32⟩ : BufTy).Contents (Elt F) :=
  addBias (pb (pool (propagate (pa (relu (propagate (pa (relu (propagate (pa x W0) ei b0)) W1) ei b1)) W2) ei b2) batch) Wc) bc

end Cert.KernelIdeal.Stage

end
-- ==== Proof.KernelFold.lean ====
/-
  The idealized kernel's buffer contents after @main, as one straight line of host operations. A matrix-product region
  changes the buffers exactly as ONE host operation would: its output array ends at the product of its two input
  arrays, everything else is left as it was. With each of the four regions replaced by that operation the fold through
  @main's thirteen segments is the fold of a single line of operations from the launch memory, and the result buffer at
  its end is the network's function (Stages) of the eleven argument arrays, with the matrix product of exact arithmetic
  in the four places where the regions stand.
-/
import proofs.«131855_j87136296501830_1_alg».proof.Proof.Gen.KernelIdeal.Frame
import proofs.«131855_j87136296501830_1_alg».proof.Proof.Region0
import proofs.«131855_j87136296501830_1_alg».proof.Proof.Region1
import proofs.«131855_j87136296501830_1_alg».proof.Proof.Region2
import proofs.«131855_j87136296501830_1_alg».proof.Proof.Region3
import proofs.«131855_j87136296501830_1_alg».proof.Proof.Stages
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! ## The line of operations, at any float arithmetic and over any two product functions -/

section Line

variable {F : FTy → Type} [FloatOps F]
variable (pa : (⟨S50000x128, .f32⟩ : BufTy).Contents (Elt F) → (⟨S128x128, .f32⟩ : BufTy).Contents (Elt F) → (⟨S50000x128, .f32⟩ : BufTy).Contents (Elt F))
variable (pb : (⟨S512x128, .f32⟩ : BufTy).Contents (Elt F) → (⟨S128x12, .f32⟩ : BufTy).Contents (Elt F) → (⟨S512x12, .f32⟩ : BufTy).Contents (Elt F))

/-- The four places of a product, each as one host operation: the output buffer takes the product function of the
    two input buffers. -/
abbrev prodOp0 : HloOp τ sig (Elt F) := StableHlo.binary main_arg0 main_arg3 main_v30 pa
abbrev prodOp1 : HloOp τ sig (Elt F) := StableHlo.binary main_v47 main_arg5 main_v48 pa
abbrev prodOp2 : HloOp τ sig (Elt F) := StableHlo.binary main_v65 main_arg7 main_v66 pa
abbrev prodOp3 : HloOp τ sig (Elt F) := StableHlo.binary main_v94 main_arg9 main_v95 pb

set_option maxHeartbeats 40000000 in
/-- From any buffer contents, the line of @main's host operations with the four product operations in the regions'
    places leaves in the result buffer the network's function of the argument buffers. -/
theorem line_value (V : Valuation τ sig (Elt F)) :
    after hostOps4 ((prodOp3 pb).result (after hostOps3 ((prodOp2 pa).result (after hostOps2_1 (after hostOps2
      ((prodOp1 pa).result (after hostOps1_1 (after hostOps1 ((prodOp0 pa).result (after hostOps0_2 (after hostOps0_1
        (after hostOps0 V)))))))))))) (Proc.devRef .tc main_v98)
      = Stage.model pa pb (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) := by
  after_results_simp
  rfl

end Line

/-! ## The regions are such operations at exact arithmetic, and the fold is the line -/

variable (m : (ℓ : Loc nD τ sig) → Buf (Elt Ideal) ℓ) (ρ : Dev nD → PrngReg)

/-- The buffer contents region 0 leaves are those that one operation leaves: its output array holds the product of
    its two input arrays, each input array is as the region found it, and no other buffer is touched. -/
theorem W4_eq (c : Dev nD) : W4 m ρ c = (prodOp0 (F := Ideal) (Cert.Dense.mm (m := 50000) (K := 128) (n := 128))).result (W3 m ρ c) := by
  funext b
  by_cases hb : ∃ w, Proc.devRef .tc (Pipeline.arrRef spec0 w) = b
  · obtain ⟨w, rfl⟩ := hb
    rw [W4_arr]
    match w with
    | ⟨0, _⟩ =>
      exact (((dat0 (V3 m ρ) c).arrAt_in 0 rfl _).trans (A_eq0 (V3 m ρ) c 0)).trans
        (HloOp.result_of_not_mem _ _ (by
          rw [StableHlo.binary_writes, Finset.mem_singleton]; exact StableHlo.devRef_ne_of_ne (by decide))).symm
    | ⟨1, _⟩ =>
      exact (((dat0 (V3 m ρ) c).arrAt_in 1 rfl _).trans (A_eq0 (V3 m ρ) c 1)).trans
        (HloOp.result_of_not_mem _ _ (by
          rw [StableHlo.binary_writes, Finset.mem_singleton]; exact StableHlo.devRef_ne_of_ne (by decide))).symm
    | ⟨2, _⟩ =>
      exact (Region0.product (V3 m ρ) c).trans (StableHlo.binary_result main_arg0 main_arg3 main_v30 _ _ _ _ (W3 m ρ c)).symm
  · have hnw : b ∉ (prodOp0 (F := Ideal) (Cert.Dense.mm (m := 50000) (K := 128) (n := 128))).writes := fun h => hb ⟨2, (Finset.mem_singleton.mp h).symm⟩
    rw [HloOp.result_of_not_mem _ _ hnw]
    unfold W4 Pipeline.withArrays
    exact dif_neg hb

/-- The buffer contents region 1 leaves are those that one operation leaves: its output array holds the product of
    its two input arrays, each input array is as the region found it, and no other buffer is touched. -/
theorem W7_eq (c : Dev nD) : W7 m ρ c = (prodOp1 (F := Ideal) (Cert.Dense.mm (m := 50000) (K := 128) (n := 128))).result (W6 m ρ c) := by
  funext b
  by_cases hb : ∃ w, Proc.devRef .tc (Pipeline.arrRef spec1 w) = b
  · obtain ⟨w, rfl⟩ := hb
    rw [W7_arr]
    match w with
    | ⟨0, _⟩ =>
      exact (((dat1 (V6 m ρ) c).arrAt_in 0 rfl _).trans (A_eq1 (V6 m ρ) c 0)).trans
        (HloOp.result_of_not_mem _ _ (by
          rw [StableHlo.binary_writes, Finset.mem_singleton]; exact StableHlo.devRef_ne_of_ne (by decide))).symm
    | ⟨1, _⟩ =>
      exact (((dat1 (V6 m ρ) c).arrAt_in 1 rfl _).trans (A_eq1 (V6 m ρ) c 1)).trans
        (HloOp.result_of_not_mem _ _ (by
          rw [StableHlo.binary_writes, Finset.mem_singleton]; exact StableHlo.devRef_ne_of_ne (by decide))).symm
    | ⟨2, _⟩ =>
      exact (Region1.product (V6 m ρ) c).trans (StableHlo.binary_result main_v47 main_arg5 main_v48 _ _ _ _ (W6 m ρ c)).symm
  · have hnw : b ∉ (prodOp1 (F := Ideal) (Cert.Dense.mm (m := 50000) (K := 128) (n := 128))).writes := fun h => hb ⟨2, (Finset.mem_singleton.mp h).symm⟩
    rw [HloOp.result_of_not_mem _ _ hnw]
    unfold W7 Pipeline.withArrays
    exact dif_neg hb

/-- The buffer contents region 2 leaves are those that one operation leaves: its output array holds the product of
    its two input arrays, each input array is as the region found it, and no other buffer is touched. -/
theorem W10_eq (c : Dev nD) : W10 m ρ c = (prodOp2 (F := Ideal) (Cert.Dense.mm (m := 50000) (K := 128) (n := 128))).result (W9 m ρ c) := by
  funext b
  by_cases hb : ∃ w, Proc.devRef .tc (Pipeline.arrRef spec2 w) = b
  · obtain ⟨w, rfl⟩ := hb
    rw [W10_arr]
    match w with
    | ⟨0, _⟩ =>
      exact (((dat2 (V9 m ρ) c).arrAt_in 0 rfl _).trans (A_eq2 (V9 m ρ) c 0)).trans
        (HloOp.result_of_not_mem _ _ (by
          rw [StableHlo.binary_writes, Finset.mem_singleton]; exact StableHlo.devRef_ne_of_ne (by decide))).symm
    | ⟨1, _⟩ =>
      exact (((dat2 (V9 m ρ) c).arrAt_in 1 rfl _).trans (A_eq2 (V9 m ρ) c 1)).trans
        (HloOp.result_of_not_mem _ _ (by
          rw [StableHlo.binary_writes, Finset.mem_singleton]; exact StableHlo.devRef_ne_of_ne (by decide))).symm
    | ⟨2, _⟩ =>
      exact (Region2.product (V9 m ρ) c).trans (StableHlo.binary_result main_v65 main_arg7 main_v66 _ _ _ _ (W9 m ρ c)).symm
  · have hnw : b ∉ (prodOp2 (F := Ideal) (Cert.Dense.mm (m := 50000) (K := 128) (n := 128))).writes := fun h => hb ⟨2, (Finset.mem_singleton.mp h).symm⟩
    rw [HloOp.result_of_not_mem _ _ hnw]
    unfold W10 Pipeline.withArrays
    exact dif_neg hb

/-- The buffer contents region 3 leaves are those that one operation leaves: its output array holds the product of
    its two input arrays, each input array is as the region found it, and no other buffer is touched. -/
theorem W12_eq (c : Dev nD) : W12 m ρ c = (prodOp3 (F := Ideal) (Cert.Dense.mm (m := 512) (K := 128) (n := 12))).result (W11 m ρ c) := by
  funext b
  by_cases hb : ∃ w, Proc.devRef .tc (Pipeline.arrRef spec3 w) = b
  · obtain ⟨w, rfl⟩ := hb
    rw [W12_arr]
    match w with
    | ⟨0, _⟩ =>
      exact (((dat3 (V11 m ρ) c).arrAt_in 0 rfl _).trans (A_eq3 (V11 m ρ) c 0)).trans
        (HloOp.result_of_not_mem _ _ (by
          rw [StableHlo.binary_writes, Finset.mem_singleton]; exact StableHlo.devRef_ne_of_ne (by decide))).symm
    | ⟨1, _⟩ =>
      exact (((dat3 (V11 m ρ) c).arrAt_in 1 rfl _).trans (A_eq3 (V11 m ρ) c 1)).trans
        (HloOp.result_of_not_mem _ _ (by
          rw [StableHlo.binary_writes, Finset.mem_singleton]; exact StableHlo.devRef_ne_of_ne (by decide))).symm
    | ⟨2, _⟩ =>
      exact (Region3.product (V11 m ρ) c).trans (StableHlo.binary_result main_v94 main_arg9 main_v95 _ _ _ _ (W11 m ρ c)).symm
  · have hnw : b ∉ (prodOp3 (F := Ideal) (Cert.Dense.mm (m := 512) (K := 128) (n := 12))).writes := fun h => hb ⟨2, (Finset.mem_singleton.mp h).symm⟩
    rw [HloOp.result_of_not_mem _ _ hnw]
    unfold W12 Pipeline.withArrays
    exact dif_neg hb

/-- The result buffer after @main holds the network's function of the argument arrays as launched. -/
theorem result_value (c : Dev nD) :
    W13 m ρ c (Proc.devRef .tc main_v98)
      = Stage.model (F := Ideal) (Cert.Dense.mm (m := 50000) (K := 128) (n := 128)) (Cert.Dense.mm (m := 512) (K := 128) (n := 12))
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  dsimp only [W13]
  rw [W12_eq]
  dsimp only [W11]
  rw [W10_eq]
  dsimp only [W9, W8]
  rw [W7_eq]
  dsimp only [W6, W5]
  rw [W4_eq]
  dsimp only [W3, W2, W1]
  exact line_value (F := Ideal) (Cert.Dense.mm (m := 50000) (K := 128) (n := 128)) (Cert.Dense.mm (m := 512) (K := 128) (n := 12)) (W0 m ρ c)

end Cert.KernelIdeal.Fold

end
-- ==== Proof.RefValue.lean ====
/-
  The reference's result as the network's function. The reference computes the same stages in the same order as the
  kernel's host side (it recomputes the message weights in every propagation step, from the same edge list, so by the
  same function), with the host's dot_general where the kernel has a matrix-product region. Its run's result term is
  therefore the network's function (Stages) with dot_general in the four places, and at exact arithmetic dot_general
  with plain matrix dimension numbers is the matrix product.
-/
import proofs.«131855_j87136296501830_1_alg».proof.Proof.RefRun
import proofs.«131855_j87136296501830_1_alg».proof.Proof.Stages
import proofs.«131855_j87136296501830_1_alg».proof.Proof.LibMatProduct
import proofs.«131855_j87136296501830_1_alg».proof.Proof.Gen.KernelIdeal

set_option maxRecDepth 16384

noncomputable section

namespace Cert.ReferenceIdeal.RefValue

open Cert.ReferenceIdeal Cert.ReferenceIdeal.Gen
open Idealize.ShloMosaic Idealize.ShloMosaic.TcCoe Idealize.SL.Sem

/-- The host's 50000×128 by 128×128 product is the matrix product. -/
theorem host_product_a :
    (Host.dotGeneral (F := Ideal) (φ₁ := .f32) (φ₂ := .f32) dot_S50000x128_S128x128_S50000x128_1_0_0_1_n_n none)
      = Cert.Dense.mm (m := 50000) (K := 128) (n := 128) :=
  funext fun x => funext fun w => Cert.Dense.dotGeneral_eq_mm _ rfl rfl rfl rfl rfl rfl x w

/-- The host's 512×128 by 128×12 product is the matrix product. -/
theorem host_product_b :
    (Host.dotGeneral (F := Ideal) (φ₁ := .f32) (φ₂ := .f32) dot_S512x128_S128x12_S512x12_1_0_0_1_n_n none)
      = Cert.Dense.mm (m := 512) (K := 128) (n := 12) :=
  funext fun x => funext fun w => Cert.Dense.dotGeneral_eq_mm _ rfl rfl rfl rfl rfl rfl x w

variable (m : (ℓ : Loc nD τ sig) → Buf (Elt Ideal) ℓ)

set_option maxHeartbeats 40000000 in
/-- The reference run's result term is the network's function of the argument arrays, over the host's products. -/
theorem result_host (c : Dev nD) :
    ValueP.res_main_v150 (F := Ideal) m c
      = Cert.KernelIdeal.Stage.model (F := Ideal)
          (Host.dotGeneral (F := Ideal) (φ₁ := .f32) (φ₂ := .f32) dot_S50000x128_S128x128_S50000x128_1_0_0_1_n_n none)
          (Host.dotGeneral (F := Ideal) (φ₁ := .f32) (φ₂ := .f32) dot_S512x128_S128x12_S512x12_1_0_0_1_n_n none)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold ValueP.res_main_v150
  rfl

/-- … and so, at exact arithmetic, over the matrix product. -/
theorem result_value (c : Dev nD) :
    ValueP.res_main_v150 (F := Ideal) m c
      = Cert.KernelIdeal.Stage.model (F := Ideal)
          (Cert.Dense.mm (m := 50000) (K := 128) (n := 128)) (Cert.Dense.mm (m := 512) (K := 128) (n := 12))
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  rw [result_host, host_product_a, host_product_b]

end Cert.ReferenceIdeal.RefValue

end
-- ==== Proof.lean ====
/-
  The certificate of the graph network: three propagation steps, a mean over graphs and a linear head, with the four
  dense products computed by a TensorCore kernel tiled over blocks of rows, against the same network written with the
  host's dot_general. At exact arithmetic the two are one function of the eleven arguments. The kernel's host side and
  the reference are the same stages in the same order (Stages); a region leaves in its output array the matrix product
  of its two input arrays (Region0 … Region3), which is what one host operation would leave there, so the kernel's
  buffers after @main are those of a straight line of operations (KernelFold); and dot_general with plain matrix
  dimension numbers is the matrix product (LibMatProduct). No law of the extended reals beyond that is used, and the
  precondition is not opened.
  The three frames: the kernel's and its idealization's are the generated ones; the reference has no kernel, and its
  frame is its run with the result dropped. The idealization rewrote no operation, so there is nothing to preserve.
-/
import proofs.«131855_j87136296501830_1_alg».proof.Defs
import proofs.«131855_j87136296501830_1_alg».proof.Proof.Gen.Kernel
import proofs.«131855_j87136296501830_1_alg».proof.Proof.Gen.Kernel.Frame
import proofs.«131855_j87136296501830_1_alg».proof.Proof.Gen.KernelIdeal
import proofs.«131855_j87136296501830_1_alg».proof.Proof.Gen.KernelIdeal.Frame
import proofs.«131855_j87136296501830_1_alg».proof.Proof.Gen.ReferenceIdeal
import proofs.«131855_j87136296501830_1_alg».proof.Proof.Gen.Pre_finite_inputs
import proofs.«131855_j87136296501830_1_alg».proof.Proof.RunAll
import proofs.«131855_j87136296501830_1_alg».proof.Proof.KernelFold
import proofs.«131855_j87136296501830_1_alg».proof.Proof.RefRun
import proofs.«131855_j87136296501830_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the network's function of the arguments in the result buffer: the kernel by its fold, the
    reference by its run's term, from memories that agree on the arguments. -/
theorem algebraic : Cert.algebraic_KernelIdeal_ReferenceIdeal := by
  intro m ρ m' ρ' _ hagree
  refine ⟨fun c => Cert.KernelIdeal.Stage.model (F := Ideal)
          (Cert.Dense.mm (m := 50000) (K := 128) (n := 128)) (Cert.Dense.mm (m := 512) (K := 128) (n := 12))
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Whole.run_all m ρ)
    exact ⟨(h c _ (Cert.KernelIdeal.Whole.mem_unscoped Cert.KernelIdeal.main_v98 (by decide))).trans (Cert.KernelIdeal.Fold.result_value m ρ c),
      (h c _ (Cert.KernelIdeal.Whole.mem_unscoped Cert.KernelIdeal.main_arg0 (by decide))).trans (Cert.KernelIdeal.Gen.W13_main_arg0 m ρ c),
      (h c _ (Cert.KernelIdeal.Whole.mem_unscoped Cert.KernelIdeal.main_arg1 (by decide))).trans (Cert.KernelIdeal.Gen.W13_main_arg1 m ρ c),
      (h c _ (Cert.KernelIdeal.Whole.mem_unscoped Cert.KernelIdeal.main_arg2 (by decide))).trans (Cert.KernelIdeal.Gen.W13_main_arg2 m ρ c),
      (h c _ (Cert.KernelIdeal.Whole.mem_unscoped Cert.KernelIdeal.main_arg3 (by decide))).trans (Cert.KernelIdeal.Gen.W13_main_arg3 m ρ c),
      (h c _ (Cert.KernelIdeal.Whole.mem_unscoped Cert.KernelIdeal.main_arg4 (by decide))).trans (Cert.KernelIdeal.Gen.W13_main_arg4 m ρ c),
      (h c _ (Cert.KernelIdeal.Whole.mem_unscoped Cert.KernelIdeal.main_arg5 (by decide))).trans (Cert.KernelIdeal.Gen.W13_main_arg5 m ρ c),
      (h c _ (Cert.KernelIdeal.Whole.mem_unscoped Cert.KernelIdeal.main_arg6 (by decide))).trans (Cert.KernelIdeal.Gen.W13_main_arg6 m ρ c),
      (h c _ (Cert.KernelIdeal.Whole.mem_unscoped Cert.KernelIdeal.main_arg7 (by decide))).trans (Cert.KernelIdeal.Gen.W13_main_arg7 m ρ c),
      (h c _ (Cert.KernelIdeal.Whole.mem_unscoped Cert.KernelIdeal.main_arg8 (by decide))).trans (Cert.KernelIdeal.Gen.W13_main_arg8 m ρ c),
      (h c _ (Cert.KernelIdeal.Whole.mem_unscoped Cert.KernelIdeal.main_arg9 (by decide))).trans (Cert.KernelIdeal.Gen.W13_main_arg9 m ρ c),
      (h c _ (Cert.KernelIdeal.Whole.mem_unscoped Cert.KernelIdeal.main_arg10 (by decide))).trans (Cert.KernelIdeal.Gen.W13_main_arg10 m ρ c)⟩
  · refine (θ_run Cert.ReferenceIdeal.defs _ _).mono (fun _ h c => ⟨(h c).1.trans ?_, (h c).2⟩) (Cert.ReferenceIdeal.ValueP.run (F := Ideal) m' ρ')
    rw [Cert.ReferenceIdeal.RefValue.result_value, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
